-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S262144x128 .f32) (main_arg1 : FVec F S262144x128 .f32) (main_arg2 : FVec F S128x128 .f32) (main_arg3 : FVec F S128 .f32) (main_arg4 : FVec F S128x128 .f32) (main_arg5 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S262144x128 : Shape := ⟨2, ![262144, 128]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S2048x128 : Shape := ⟨2, ![2048, 128]⟩

abbrev nBuf : Space → Nat
  | .hbm => 26
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128x128, .f32⟩
  | .hbm, ⟨21, _⟩ => ⟨S128x128, .bf16⟩
  | .hbm, ⟨22, _⟩ => ⟨S128x128, .bf16⟩
  | .hbm, ⟨23, _⟩ => ⟨S1x128, .f32⟩
  | .hbm, ⟨24, _⟩ => ⟨S1x128, .f32⟩
  | .hbm, ⟨25, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  transposes_S128x128_S128x128_1_0 : S128x128.Transposes [1, 0] S128x128
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128 : S_.BroadcastsInDim S128 (![] : Fin 0 → Fin S128.rank)
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S262144x128.size a
  hwx0_6 : ∀ i : grid0.Coords, EltTy.bits .f32 = 32 ∨ (Rect.block (s := S262144x128) S2048x128.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S262144x128, .f32⟩
  | .hbm, ⟨8, _⟩ => ⟨S1x128, .f32⟩
  | .hbm, ⟨9, _⟩ => ⟨S262144x128, .f32⟩
  | .hbm, ⟨10, _⟩ => ⟨S262144x128, .f32⟩
  | .hbm, ⟨11, _⟩ => ⟨S128x128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S262144x128, .f32⟩
  | .hbm, ⟨17, _⟩ => ⟨S262144x128, .f32⟩
  | .hbm, ⟨18, _⟩ => ⟨S128x128, .f32⟩
  | .hbm, ⟨19, _⟩ => ⟨S262144x128, .f32⟩
  | .hbm, ⟨20, _⟩ => ⟨S1x128, .f32⟩
  | .hbm, ⟨21, _⟩ => ⟨S262144x128, .f32⟩
  | .hbm, ⟨22, _⟩ => ⟨S262144x128, .f32⟩
  | .hbm, ⟨23, _⟩ => ⟨S_, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S1x128, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S128x128_S128_d1 : S128x128.ReducesTo [1] S128
  h_S_ : 0 < S_.numel
  bcast_S_S262144x128 : S_.BroadcastsInDim S262144x128 (![] : Fin 0 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.EntryLaw.lean ====
/-
  The arithmetic of one output entry, with no program in sight.

  Row r of x and of z, row j of U_w and of A_w, the weights e_k = exp d_k, the bias b = U_b j, the entry y = z (r, j) and the
  margin μ.  The fused layer computes

      ( Σ_k x_k·U_k  +  Σ_k z_k·((e_k·A_k) / e_j)  +  b )  +  y·(μ − Σ_k |A_k|) ,

  the plain layer

      ( Σ_k x_k·U_k + b )  +  ( ( μ·y  +  (Σ_k (z_k·e_k)·A_k) / e_j )  −  y·Σ_k |A_k| ) .

  On real numbers with e_j ≠ 0 these are one number: the quotient by e_j is the product with 1/e_j, which leaves the sum as a
  common factor, and y distributes over μ − Σ|A|.  Both steps fail at the infinities of the extended reals, so the law is stated
  for entries that ARE reals, embedded.
-/
import Mathlib
import Idealize.ShloMosaic.PureOps.Ideal
import Idealize.ShloMosaic.PureOps.Ideal.Laws

noncomputable section

namespace Cert.Layer

open Idealize.ShloMosaic

/-- The embedding of the reals in the extended reals carries a finite sum to the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The absolute value of an embedded real, written as the larger of the number and its negative. -/
theorem max_neg_coe (a : ℝ) : max (a : EReal) (-(a : EReal)) = ((|a| : ℝ) : EReal) := by
  rw [← EReal.coe_neg, abs_eq_max_neg]
  exact (EReal.coe_strictMono.monotone.map_max).symm

/-- The exponential of an embedded real is the embedded real exponential. -/
theorem exp_coe (r : ℝ) : Ideal.exp (r : EReal) = ((Real.exp r : ℝ) : EReal) := rfl

/-- THE LAW of one entry, on embedded reals, over any finite contraction index. -/
theorem entry_law {K : Type*} [Fintype K] (X U Z E A : K → ℝ) (e b y μ : ℝ) (he : e ≠ 0) :
    ((∑ k, (X k : EReal) * (U k : EReal)) + (∑ k, (Z k : EReal) * Ideal.div ((E k : EReal) * (A k : EReal)) (e : EReal)) + (b : EReal))
        + (y : EReal) * ((μ : EReal) - (0 + ∑ k, max (A k : EReal) (-(A k : EReal))))
      = ((∑ k, (X k : EReal) * (U k : EReal)) + (b : EReal))
        + (((μ : EReal) * (y : EReal) + Ideal.div (∑ k, ((Z k : EReal) * (E k : EReal)) * (A k : EReal)) (e : EReal))
            - (y : EReal) * (0 + ∑ k, max (A k : EReal) (-(A k : EReal)))) := by
  simp only [max_neg_coe, zero_add, ← EReal.coe_mul, ← coe_sum, Ideal.div_coe he, ← EReal.coe_add, ← EReal.coe_sub]
  rw [EReal.coe_eq_coe_iff]
  have h : ∑ k, Z k * (E k * A k * (1 / e)) = (∑ k, Z k * E k * A k) * (1 / e) := by
    rw [Finset.sum_mul]
    exact Finset.sum_congr rfl fun k _ => by ring
  rw [h]
  ring

end Cert.Layer

end
-- ==== Proof.Entries.lean ====
/-
  Entry (r, j) of the result, as each of the two programs computes it from the six argument arrays, and the law that joins them.

  x, z : [262144, 128];  U_w, A_w : [128, 128];  U_b, d : [128].  With e = exp d and s_j = Σ_k |A_w (j, k)|,

    fused   (r, j)  =  ( Σ_k x(r,k)·U_w(j,k)  +  Σ_k z(r,k)·((e_k·A_w(j,k)) / e_j)  +  U_b j )  +  z(r,j)·(μ − s_j)
    plain   (r, j)  =  ( Σ_k x(r,k)·U_w(j,k) + U_b j )  +  ( ( μ·z(r,j) + (Σ_k (z(r,k)·e_k)·A_w(j,k)) / e_j ) − z(r,j)·s_j )

  (μ the float word of 0.05, and each row sum of |A_w| started from the zero word, as both programs write it).  When every entry
  of every argument is a real number the two agree: exp d_j is then a nonzero real, and the law of one entry applies.
-/
import proofs.«101402_j584115552274_1_alg».proof.Proof.EntryLaw
import Idealize.ShloMosaic.Lib.ValueIdx

noncomputable section

namespace Cert.Layer

open Idealize.ShloMosaic Idealize.ShloMosaic.ValueIdx

/-- The float word both programs write for the margin 0.05 denotes a real number (its exponent field is neither all ones nor zero). -/
theorem margin_real : ∃ μ : ℝ, Ideal.ofBits .f32 0x3D4CCCCD#32 = (μ : EReal) := by
  unfold Ideal.ofBits Ideal.ieee
  dsimp only
  rw [if_neg (by decide), if_neg (by decide)]
  exact ⟨_, rfl⟩

variable (x z : (⟨2, ![262144, 128]⟩ : Shape).Idx → EReal) (uw : (⟨2, ![128, 128]⟩ : Shape).Idx → EReal)
  (ub : (⟨1, ![128]⟩ : Shape).Idx → EReal) (aw : (⟨2, ![128, 128]⟩ : Shape).Idx → EReal) (d : (⟨1, ![128]⟩ : Shape).Idx → EReal)

/-- Row j of |A_w| summed, from the zero word. -/
def absRowSum (j : Fin 128) : EReal :=
  Ideal.ofBits .f32 0x00000000#32 + ∑ k : Fin 128, max (aw (ix2 j k)) (-(aw (ix2 j k)))

/-- Entry (r, j) as the fused layer computes it. -/
def fusedEntry (r : Fin 262144) (j : Fin 128) : EReal :=
  ((∑ k : Fin 128, x (ix2 r k) * uw (ix2 j k))
      + (∑ k : Fin 128, z (ix2 r k) * Ideal.div (Ideal.exp (d (ix1 k)) * aw (ix2 j k)) (Ideal.exp (d (ix1 j))))
      + ub (ix1 j))
    + z (ix2 r j) * (Ideal.ofBits .f32 0x3D4CCCCD#32 - absRowSum aw j)

/-- Entry (r, j) as the plain layer computes it. -/
def plainEntry (r : Fin 262144) (j : Fin 128) : EReal :=
  ((∑ k : Fin 128, x (ix2 r k) * uw (ix2 j k)) + ub (ix1 j))
    + ((Ideal.ofBits .f32 0x3D4CCCCD#32 * z (ix2 r j)
          + Ideal.div (∑ k : Fin 128, (z (ix2 r k) * Ideal.exp (d (ix1 k))) * aw (ix2 j k)) (Ideal.exp (d (ix1 j))))
        - z (ix2 r j) * absRowSum aw j)

/-- The whole result array, each way. -/
def fusedArr : (⟨2, ![262144, 128]⟩ : Shape).Idx → EReal := fun i => fusedEntry x z uw ub aw d (i 0) (i 1)
def plainArr : (⟨2, ![262144, 128]⟩ : Shape).Idx → EReal := fun i => plainEntry x z uw ub aw d (i 0) (i 1)

/-- THE TWO ENTRIES AGREE when every argument entry is a real number. -/
theorem fusedEntry_eq_plainEntry (hx : ∀ i, ∃ v : ℝ, x i = v) (hz : ∀ i, ∃ v : ℝ, z i = v) (huw : ∀ i, ∃ v : ℝ, uw i = v)
    (hub : ∀ i, ∃ v : ℝ, ub i = v) (haw : ∀ i, ∃ v : ℝ, aw i = v) (hd : ∀ i, ∃ v : ℝ, d i = v) (r : Fin 262144) (j : Fin 128) :
    fusedEntry x z uw ub aw d r j = plainEntry x z uw ub aw d r j := by
  choose X hX using hx
  choose Z hZ using hz
  choose W hW using huw
  choose B hB using hub
  choose A hA using haw
  choose D hD using hd
  obtain ⟨μ, hμ⟩ := margin_real
  unfold fusedEntry plainEntry absRowSum
  simp only [hX, hZ, hW, hB, hA, hD, hμ, exp_coe, Ideal.ofBits_zero_f32]
  exact entry_law (fun k => X (ix2 r k)) (fun k => W (ix2 j k)) (fun k => Z (ix2 r k)) (fun k => Real.exp (D (ix1 k)))
    (fun k => A (ix2 j k)) (Real.exp (D (ix1 j))) (B (ix1 j)) (Z (ix2 r j)) μ (Real.exp_ne_zero _)

theorem fusedArr_eq_plainArr (hx : ∀ i, ∃ v : ℝ, x i = v) (hz : ∀ i, ∃ v : ℝ, z i = v) (huw : ∀ i, ∃ v : ℝ, uw i = v)
    (hub : ∀ i, ∃ v : ℝ, ub i = v) (haw : ∀ i, ∃ v : ℝ, aw i = v) (hd : ∀ i, ∃ v : ℝ, d i = v) :
    fusedArr x z uw ub aw d = plainArr x z uw ub aw d :=
  funext fun i => fusedEntry_eq_plainEntry x z uw ub aw d hx hz huw hub haw hd (i 0) (i 1)

end Cert.Layer

end
-- ==== Proof.Payload.lean ====
/-
  What one grid point computes, entry by entry.

  The body loads a 2048-row block of x and of z, the two 128 × 128 weight matrices, and two rows of 128 numbers; it forms the two
  matrix products into a zero accumulator, adds them, adds the first row to every row of the sum, and adds z times the second row.
  Read at (p, q) over the extended reals, where a change of float format is the identity and a matrix product into zero is the plain
  contraction:

      ( Σ_k x(p,k)·M(k,q)  +  Σ_k z(p,k)·N(k,q)  +  u(0,q) )  +  z(p,q)·w(0,q) .
-/
import proofs.«101402_j584115552274_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product's dimension record: rows of the left operand against columns of the right, one contracted axis of length 128. -/
abbrev rowsByCols : DotDims S2048x128 S128x128 S2048x128 := dot_S2048x128_S128x128_S2048x128_1_0_0_1_n_n

theorem lhs_row (i : S2048x128.Idx) (κ : rowsByCols.contr.Idx) : (rowsByCols.lhsIdx i κ 0).val = (i 0).val := by
  unfold DotDims.lhsIdx
  rw [dif_neg (show ¬(0 : Fin S2048x128.rank) ∈ rowsByCols.lhsBatch by decide), dif_pos (show (0 : Fin S2048x128.rank) ∈ rowsByCols.lhsNonContracting by decide)]
  rfl
theorem lhs_contr (i : S2048x128.Idx) (κ : rowsByCols.contr.Idx) : (rowsByCols.lhsIdx i κ 1).val = (κ ⟨0, by decide⟩).val :=
  rowsByCols.lhsIdx_val_of_single rfl i κ
theorem rhs_contr (i : S2048x128.Idx) (κ : rowsByCols.contr.Idx) : (rowsByCols.rhsIdx i κ 0).val = (κ ⟨0, by decide⟩).val :=
  rowsByCols.rhsIdx_val_of_single rfl i κ
theorem rhs_col (i : S2048x128.Idx) (κ : rowsByCols.contr.Idx) : (rowsByCols.rhsIdx i κ 1).val = (i 1).val := by
  unfold DotDims.rhsIdx
  rw [dif_neg (show ¬(1 : Fin S128x128.rank) ∈ rowsByCols.rhsBatch by decide), dif_pos (show (1 : Fin S128x128.rank) ∈ rowsByCols.rhsNonContracting by decide)]
  rfl

/-- A matrix product into the zero accumulator, read at (p, q): the sum over k of left (p, k) times right (k, q). -/
theorem matmul_entry (l : FVec Ideal S2048x128 .bf16) (r : FVec Ideal S128x128 .bf16) (p : Fin 2048) (q : Fin 128) :
    matmul (F := Ideal) rowsByCols none l r (constant (F := Ideal) S2048x128 .f32 0x00000000#32) (ix2 p q)
      = ∑ k : Fin 128, l (ix2 p k) * r (ix2 k q) := by
  simp only [matmul]
  rw [Ideal.matmul_constant_zero_apply, ← Equiv.sum_comp (contrEquiv1 rowsByCols 128 rfl rfl).symm]
  refine Finset.sum_congr rfl fun k _ => ?_
  have hk := contrEquiv1_symm_val rowsByCols 128 rfl rfl k
  have el : rowsByCols.lhsIdx (ix2 p q) ((contrEquiv1 rowsByCols 128 rfl rfl).symm k) = ix2 p k := funext fun a => Fin.ext (by
    match a with
    | ⟨0, _⟩ => exact lhs_row _ _
    | ⟨1, _⟩ => exact (lhs_contr _ _).trans hk)
  have er : rowsByCols.rhsIdx (ix2 p q) ((contrEquiv1 rowsByCols 128 rfl rfl).symm k) = ix2 k q := funext fun a => Fin.ext (by
    match a with
    | ⟨0, _⟩ => exact (rhs_contr _ _).trans hk
    | ⟨1, _⟩ => exact rhs_col _ _)
  rw [el, er]

/-- THE BODY'S RESULT AT (p, q), from the six blocks it loads (the block of z is loaded twice). -/
theorem payload_entry (x0 x1 : Vec Ideal S2048x128 .f32) (x2 x3 : Vec Ideal S128x128 .bf16) (x4 x5 : Vec Ideal S1x128 .f32)
    (p : Fin 2048) (q : Fin 128) :
    k0_pay1 (F := Ideal) x0 x1 x2 x3 x4 x1 x5 (ix2 p q)
      = ((∑ k : Fin 128, x0 (ix2 p k) * x2 (ix2 k q)) + (∑ k : Fin 128, x1 (ix2 p k) * x3 (ix2 k q)) + x4 (ix2 (0 : Fin 1) q))
          + x1 (ix2 p q) * x5 (ix2 (0 : Fin 1) q) := by
  unfold k0_pay1
  simp only [shapeCast_self]
  rw [addf_apply, addf_apply, addf_apply, mulf_apply, matmul_entry, matmul_entry, broadcastTo_1b_ab_apply, broadcastTo_1b_ab_apply]
  rfl

end Cert.KernelIdeal.Body

end
-- ==== Proof.HostPrefix.lean ====
/-
  What the host lines before the call leave in the four small arrays the kernel stages, entry by entry, from the arguments
  U_w, U_b, A_w, d (with e = exp d):

    the first weight matrix   M (k, j) = U_w (j, k)                          (a transpose; the change to bf16 is the identity here)
    the second weight matrix  N (k, j) = (e_k · A_w (j, k)) / e_j            (a column of e times the transpose, over a row of e)
    the bias row              u (0, j) = U_b j
    the scale row             w (0, j) = μ − Σ_k |A_w (j, k)|                (μ the word of 0.05; the sum from the zero word)
-/
import proofs.«101402_j584115552274_1_alg».proof.Proof.Gen.KernelIdeal.Frame
import proofs.«101402_j584115552274_1_alg».proof.Proof.Entries
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

/-- A vector laid down a column and then spread across the columns reads, at (k, j), its entry k. -/
theorem downThenAcross (e : S128.Idx → EReal) (k j : Fin 128) :
    broadcastInDim S128x128 ![0, 1] bcast_S128x1_S128x128_0_1 (broadcastInDim S128x1 ![0] bcast_S128_S128x1_0 e) (ix2 k j) = e (ix1 k) := by
  refine (broadcastInDim_apply _ bcast_S128x1_S128x128_0_1 _ (ix2 k j) (ix2 k (0 : Fin 1)) (fun a => match a with
    | ⟨0, _⟩ => by show k.val = if (128 : Nat) = 1 then 0 else k.val; rw [if_neg (by decide)]
    | ⟨1, _⟩ => by show 0 = if (1 : Nat) = 1 then 0 else j.val; rw [if_pos rfl])).trans ?_
  exact broadcastInDim_apply _ bcast_S128_S128x1_0 e (ix2 k (0 : Fin 1)) (ix1 k) (fun a => match a with
    | ⟨0, _⟩ => by show k.val = if (128 : Nat) = 1 then 0 else k.val; rw [if_neg (by decide)])

/-- A vector laid along a row and then spread down the rows reads, at (k, j), its entry j. -/
theorem acrossThenDown (e : S128.Idx → EReal) (k j : Fin 128) :
    broadcastInDim S128x128 ![0, 1] bcast_S1x128_S128x128_0_1 (broadcastInDim S1x128 ![1] bcast_S128_S1x128_1 e) (ix2 k j) = e (ix1 j) := by
  refine (broadcastInDim_apply _ bcast_S1x128_S128x128_0_1 _ (ix2 k j) (ix2 (0 : Fin 1) j) (fun a => match a with
    | ⟨0, _⟩ => by show 0 = if (1 : Nat) = 1 then 0 else k.val; rw [if_pos rfl]
    | ⟨1, _⟩ => by show j.val = if (128 : Nat) = 1 then 0 else j.val; rw [if_neg (by decide)])).trans ?_
  exact broadcastInDim_apply _ bcast_S128_S1x128_1 e (ix2 (0 : Fin 1) j) (ix1 j) (fun a => match a with
    | ⟨0, _⟩ => by show j.val = if (128 : Nat) = 1 then 0 else j.val; rw [if_neg (by decide)])

/-- The host's sum of a matrix along its rows, from the zero word, read at j. -/
theorem rowSum_entry (y : S128x128.Idx → EReal) (j : Fin 128) :
    Host.reduceAdd (F := Ideal) y (constant (F := Ideal) S_ .f32 0x00000000#32) reducesTo_S128x128_S128_d1 h_S_ (ix1 j)
      = Ideal.ofBits .f32 0x00000000#32 + ∑ k : Fin 128, y (ix2 j k) := by
  simp only [Host.reduceAdd, Ideal.hostReduceAdd_def]
  rw [Ideal.hostReduceAdd_single reducesTo_S128x128_S128_d1 (by decide)]
  refine congrArg₂ (· + ·) rfl (Finset.sum_congr rfl fun k _ => ?_)
  exact congrArg y (funext fun a => Fin.ext (by match a with | ⟨0, _⟩ => rfl | ⟨1, _⟩ => rfl))

variable (m : (ℓ : Loc nD τ sig) → Buf (Elt Ideal) ℓ)

/-- The first weight matrix: U_w transposed. -/
theorem firstWeights_entry (c : Dev nD) (k j : Fin 128) :
    (V m c main_v13 : S128x128.Idx → EReal) (ix2 k j) = (m ((c : Thread nD τ).loc main_arg2) : S128x128.Idx → EReal) (ix2 j k) := by
  dsimp only [Gen.V, Gen.hostOps0]
  after_results
  exact transpose_ix2_apply _ _ k j

/-- The second weight matrix: a column of exp d times A_w transposed, over a row of exp d. -/
theorem secondWeights_entry (c : Dev nD) (k j : Fin 128) :
    (V m c main_v14 : S128x128.Idx → EReal) (ix2 k j)
      = Ideal.div (Ideal.exp ((m ((c : Thread nD τ).loc main_arg5) : S128.Idx → EReal) (ix1 k))
            * (m ((c : Thread nD τ).loc main_arg4) : S128x128.Idx → EReal) (ix2 j k))
          (Ideal.exp ((m ((c : Thread nD τ).loc main_arg5) : S128.Idx → EReal) (ix1 j))) := by
  dsimp only [Gen.V, Gen.hostOps0]
  after_results
  exact congrArg₂ Ideal.div (congrArg₂ (· * ·) (downThenAcross _ k j) (transpose_ix2_apply _ _ k j)) (acrossThenDown _ k j)

/-- The bias row: U_b as one row. -/
theorem biasRow_entry (c : Dev nD) (j : Fin 128) :
    (V m c main_v15 : S1x128.Idx → EReal) (ix2 (0 : Fin 1) j) = (m ((c : Thread nD τ).loc main_arg3) : S128.Idx → EReal) (ix1 j) := by
  dsimp only [Gen.V, Gen.hostOps0]
  after_results
  exact shapeCast_a_1a_apply _ _ 0 j

/-- The scale row: the margin less the row sums of |A_w|. -/
theorem scaleRow_entry (c : Dev nD) (j : Fin 128) :
    (V m c main_v16 : S1x128.Idx → EReal) (ix2 (0 : Fin 1) j)
      = Ideal.ofBits .f32 0x3D4CCCCD#32 - Cert.Layer.absRowSum (m ((c : Thread nD τ).loc main_arg4)) j := by
  dsimp only [Gen.V, Gen.hostOps0]
  after_results
  refine (shapeCast_a_1a_apply _ _ 0 j).trans ?_
  refine congrArg₂ (· - ·) ?_ ?_
  · exact broadcastInDim_apply _ bcast_S_S128 _ (ix1 j) ix0 (fun a => a.elim0)
  · exact rowSum_entry _ j

end Cert.KernelIdeal.Staged

end
-- ==== Proof.KernelValue.lean ====
/-
  From what each grid point writes to the whole result array.

  Point t reads rows 2048·t … 2048·t + 2047 of x and of z (all 128 columns) and the four small arrays whole, and writes the same rows
  of the result.  So what point t writes is block t of ONE array — the fused layer's, entry (r, j) from row r of x and z —, the 128
  blocks tile the 262144 rows (row r is in block r / 2048), and the result array ends holding that array.
-/
import proofs.«101402_j584115552274_1_alg».proof.Proof.Gen.KernelIdeal.Value
import proofs.«101402_j584115552274_1_alg».proof.Proof.Payload
import proofs.«101402_j584115552274_1_alg».proof.Proof.HostPrefix
import proofs.«101402_j584115552274_1_alg».proof.Proof.Entries

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps, over the 128 points: x, z and the result move down the rows with the point; the four small arrays stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 2048) : t.val * 2048 + p.val < 262144 := by
  have hN : grid0.N = 128 := N_0
  have ht : t.val < grid0.N := t.isLt
  have hp := p.isLt
  omega

/-! ## The six blocks at point t, entry by entry, from the arguments -/

/-- The block of x at point t: rows 2048·t onward. -/
theorem xBlock_entry (c : Dev nD) (t : Fin cfg0.N) (p : Fin 2048) (k : Fin 128) :
    (iblk m c 0 t : Vec Ideal S2048x128 .f32) (ix2 p k)
      = (m ((c : Thread nD τ).loc main_arg0) : S262144x128.Idx → EReal) (ix2 ⟨t.val * 2048 + p.val, row_lt t p⟩ k) := by
  obtain ⟨e0, e1, -⟩ := block_indices t
  unfold iblk
  rw [View.read_apply]
  show V m c main_arg0 _ = _
  rw [V_main_arg0 m c]
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- The block of z at point t: rows 2048·t onward. -/
theorem zBlock_entry (c : Dev nD) (t : Fin cfg0.N) (p : Fin 2048) (k : Fin 128) :
    (iblk m c 1 t : Vec Ideal S2048x128 .f32) (ix2 p k)
      = (m ((c : Thread nD τ).loc main_arg1) : S262144x128.Idx → EReal) (ix2 ⟨t.val * 2048 + p.val, row_lt t p⟩ k) := by
  obtain ⟨-, -, e0, e1, -⟩ := block_indices t
  unfold iblk
  rw [View.read_apply]
  show V m c main_arg1 _ = _
  rw [V_main_arg1 m c]
  refine congrArg _ (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

/-- The first weight matrix is staged whole at every point. -/
theorem firstWeights_block (c : Dev nD) (t : Fin cfg0.N) (k j : Fin 128) :
    (iblk m c 2 t : Vec Ideal S128x128 .bf16) (ix2 k j) = (m ((c : Thread nD τ).loc main_arg2) : S128x128.Idx → EReal) (ix2 j k) := by
  obtain ⟨-, -, -, -, e0, e1, -⟩ := block_indices t
  unfold iblk
  rw [View.read_apply]
  show V m c main_v13 _ = _
  refine Eq.trans (congrArg _ (funext fun a => Fin.ext ?_)) (Staged.firstWeights_entry m c k j)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The second weight matrix is staged whole at every point. -/
theorem secondWeights_block (c : Dev nD) (t : Fin cfg0.N) (k j : Fin 128) :
    (iblk m c 3 t : Vec Ideal S128x128 .bf16) (ix2 k j)
      = Ideal.div (Ideal.exp ((m ((c : Thread nD τ).loc main_arg5) : S128.Idx → EReal) (ix1 k))
            * (m ((c : Thread nD τ).loc main_arg4) : S128x128.Idx → EReal) (ix2 j k))
          (Ideal.exp ((m ((c : Thread nD τ).loc main_arg5) : S128.Idx → EReal) (ix1 j))) := by
  obtain ⟨-, -, -, -, -, -, e0, e1, -⟩ := block_indices t
  unfold iblk
  rw [View.read_apply]
  show V m c main_v14 _ = _
  refine Eq.trans (congrArg _ (funext fun a => Fin.ext ?_)) (Staged.secondWeights_entry m c k j)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The bias row is staged whole at every point. -/
theorem biasRow_block (c : Dev nD) (t : Fin cfg0.N) (j : Fin 128) :
    (iblk m c 4 t : Vec Ideal S1x128 .f32) (ix2 (0 : Fin 1) j) = (m ((c : Thread nD τ).loc main_arg3) : S128.Idx → EReal) (ix1 j) := by
  obtain ⟨-, -, -, -, -, -, -, -, e0, e1, -⟩ := block_indices t
  unfold iblk
  rw [View.read_apply]
  show V m c main_v15 _ = _
  refine Eq.trans (congrArg _ (funext fun a => Fin.ext ?_)) (Staged.biasRow_entry m c j)
  match a with
  | ⟨0, _⟩ => show win0_4.index t (0 : Fin 2) * 1 + 1 * 0 = 0; rw [e0]
  | ⟨1, _⟩ => show win0_4.index t (1 : Fin 2) * 128 + 1 * j.val = j.val; rw [e1]; omega

/-- The scale row is staged whole at every point. -/
theorem scaleRow_block (c : Dev nD) (t : Fin cfg0.N) (j : Fin 128) :
    (iblk m c 5 t : Vec Ideal S1x128 .f32) (ix2 (0 : Fin 1) j)
      = Ideal.ofBits .f32 0x3D4CCCCD#32 - Cert.Layer.absRowSum (m ((c : Thread nD τ).loc main_arg4)) j := by
  obtain ⟨-, -, -, -, -, -, -, -, -, -, e0, e1, -⟩ := block_indices t
  unfold iblk
  rw [View.read_apply]
  show V m c main_v16 _ = _
  refine Eq.trans (congrArg _ (funext fun a => Fin.ext ?_)) (Staged.scaleRow_entry m c j)
  match a with
  | ⟨0, _⟩ => show win0_5.index t (0 : Fin 2) * 1 + 1 * 0 = 0; rw [e0]
  | ⟨1, _⟩ => show win0_5.index t (1 : Fin 2) * 128 + 1 * j.val = j.val; rw [e1]; omega

/-! ## The result array -/

/-- The fused layer's array of the six arguments as launched. -/
abbrev result (c : Dev nD) : Buf (Elt Ideal) ((c : Thread nD τ).loc main_v17) :=
  Cert.Layer.fusedArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Entry (p, q) of the result's block at point t sits at row 2048·t + p, column q of the array. -/
theorem resultBlock_index (t : Fin cfg0.N) (p : Fin 2048) (q : Fin 128) :
    ((cfg0.win 6).blk t).view.emb (ix2 p q) = (ix2 ⟨t.val * 2048 + p.val, row_lt t p⟩ q : S262144x128.Idx) := by
  obtain ⟨-, -, -, -, -, -, -, -, -, -, -, -, e0, e1⟩ := block_indices t
  refine funext fun a => Fin.ext ?_
  match a with
  | ⟨0, _⟩ => show win0_6.index t (0 : Fin 2) * 2048 + 1 * p.val = t.val * 2048 + p.val; rw [e0]; omega
  | ⟨1, _⟩ => show win0_6.index t (1 : Fin 2) * 128 + 1 * q.val = q.val; rw [e1]; omega

/-- WHAT POINT t WRITES BACK is block t of the fused layer's array. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S2048x128) zero_offsets, View.ld_unit_zero (S := S128x128) zero_offsets,
    View.ld_unit_zero (S := S1x128) zero_offsets]
  funext y
  obtain ⟨p, q, rfl⟩ : ∃ (p : Fin 2048) (q : Fin 128), y = (ix2 p q : S2048x128.Idx) :=
    ⟨y 0, y 1, eq_ix2 (n0 := 2048) (n1 := 128) y⟩
  rw [View.read_apply, resultBlock_index]
  refine (Body.payload_entry (iblk m c 0 t) (iblk m c 1 t) (iblk m c 2 t) (iblk m c 3 t) (iblk m c 4 t) (iblk m c 5 t) p q).trans ?_
  show _ = Cert.Layer.fusedEntry _ _ _ _ _ _ ⟨t.val * 2048 + p.val, row_lt t p⟩ q
  unfold Cert.Layer.fusedEntry
  exact congrArg₂ (· + ·)
    (congrArg₂ (· + ·)
      (congrArg₂ (· + ·)
        (Finset.sum_congr rfl fun k _ => congrArg₂ (· * ·) (xBlock_entry m c t p k) (firstWeights_block m c t k q))
        (Finset.sum_congr rfl fun k _ => congrArg₂ (· * ·) (zBlock_entry m c t p k) (secondWeights_block m c t k q)))
      (biasRow_block m c t q))
    (congrArg₂ (· * ·) (zBlock_entry m c t p q) (scaleRow_block m c t q))

/-- An index of the array is in point t's block iff each coordinate is in the block's range on its axis. -/
theorem mem_block (t : Fin cfg0.N) (i : S262144x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v17).slice (win0_6.rect t)).set ↔ _
  rw [View.set_slice_whole, Rect.mem_set_unit]
  exact Iff.rfl

/-- THE BLOCKS TILE THE ROWS: row r is in the block of point r / 2048. -/
theorem covered (i : S262144x128.Idx) : ∃ t : Fin cfg0.N, (cfg0.win 6).flush t = true ∧ i ∈ ((cfg0.win 6).blk t).view.set := by
  have hi0 : (i 0).val < 262144 := (i 0).isLt
  have hi1 : (i 1).val < 128 := (i 1).isLt
  have hN : grid0.N = 128 := N_0
  obtain ⟨t, ht⟩ : ∃ t : Fin cfg0.N, t.val = (i 0).val / 2048 := ⟨⟨(i 0).val / 2048, by show _ < grid0.N; omega⟩, rfl⟩
  obtain ⟨-, -, -, -, -, -, -, -, -, -, -, -, e0, e1⟩ := block_indices t
  refine ⟨t, flush0_6 t, ?_⟩
  rw [mem_block]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 128 ≤ (i 1).val ∧ (i 1).val < win0_6.index t (1 : Fin 2) * 128 + 128
    rw [e1]; omega

/-- THE RESULT ARRAY after the run is the fused layer's array. -/
theorem final (c : Dev nD) : (dats m 0 c).arrAt 6 cfg0.N = result m c :=
  (dats m 0 c).arrAt_eq_of_cover 6 (result m c) (fun t _ => flushed_eq m c t) covered

/-- The kernel's run, read: the result at the fused layer's array of the arguments, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The plain layer's result, entry by entry: the reference program's operations, read one at a time at (r, j), give

    ( Σ_k x(r,k)·U_w(j,k) + U_b j )  +  ( ( μ·z(r,j) + (Σ_k (z(r,k)·e_k)·A_w(j,k)) / e_j ) − z(r,j)·Σ_k |A_w(j,k)| ) ,   e = exp d,

  with no hypothesis on the arguments: every step is a transpose, a broadcast, a contraction or a pointwise operation read at an index.
-/
import proofs.«101402_j584115552274_1_alg».proof.Proof.Gen.ReferenceIdeal.Read
import proofs.«101402_j584115552274_1_alg».proof.Proof.Entries

noncomputable section

namespace Cert.ReferenceIdeal.Plain

open Cert.ReferenceIdeal Cert.ReferenceIdeal.Read Idealize.ShloMosaic Idealize.ShloMosaic.ValueIdx

variable (x0 x1 : S262144x128.Idx → EReal) (x2 : S128x128.Idx → EReal) (x3 : S128.Idx → EReal) (x4 : S128x128.Idx → EReal) (x5 : S128.Idx → EReal)

/-- x times U_w transposed, at (r, j). -/
theorem firstProduct_entry (r : Fin 262144) (j : Fin 128) :
    val_main_v1 (F := Ideal) x0 x2 (ix2 r j) = ∑ k : Fin 128, x0 (ix2 r k) * x2 (ix2 j k) := by
  rw [val_main_v1_apply]
  refine Finset.sum_congr rfl fun k _ => ?_
  rw [val_main_v0_apply]
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- The bias spread over the rows, at (r, j). -/
theorem bias_entry (r : Fin 262144) (j : Fin 128) : val_main_v3 (F := Ideal) x3 (ix2 r j) = x3 (ix1 j) := by
  rw [val_main_v3_apply, val_main_v2_apply]
  exact congrArg x3 (funext fun a => Fin.ext (by match a with | ⟨0, _⟩ => rfl))

/-- exp d spread over the rows (the factor of z), at (r, k). -/
theorem weightRow_entry (r : Fin 262144) (k : Fin 128) : val_main_v9 (F := Ideal) x5 (ix2 r k) = Ideal.exp (x5 (ix1 k)) := by
  rw [val_main_v9_apply, val_main_v8_apply, val_main_v7_apply]
  exact congrArg (fun t => Ideal.exp (x5 t)) (funext fun a => Fin.ext (by match a with | ⟨0, _⟩ => rfl))

/-- exp d spread over the rows (the divisor), at (r, j). -/
theorem divisorRow_entry (r : Fin 262144) (j : Fin 128) : val_main_v14 (F := Ideal) x5 (ix2 r j) = Ideal.exp (x5 (ix1 j)) := by
  rw [val_main_v14_apply, val_main_v13_apply, val_main_v7_apply]
  exact congrArg (fun t => Ideal.exp (x5 t)) (funext fun a => Fin.ext (by match a with | ⟨0, _⟩ => rfl))

/-- (z · exp d) times A_w transposed, at (r, j). -/
theorem secondProduct_entry (r : Fin 262144) (j : Fin 128) :
    val_main_v12 (F := Ideal) x1 x4 x5 (ix2 r j) = ∑ k : Fin 128, (x1 (ix2 r k) * Ideal.exp (x5 (ix1 k))) * x4 (ix2 j k) := by
  rw [val_main_v12_apply]
  refine Finset.sum_congr rfl fun k _ => ?_
  have e1 : lidx_main_v12 (ix2 r j) k = ix2 r k := funext fun a => Fin.ext (by match a with | ⟨0, _⟩ => rfl | ⟨1, _⟩ => rfl)
  have e2 : idx_main_v11 (ridx_main_v12 (ix2 r j) k) = ix2 j k := funext fun a => Fin.ext (by match a with | ⟨0, _⟩ => rfl | ⟨1, _⟩ => rfl)
  rw [e1, val_main_v10_apply, weightRow_entry, val_main_v11_apply, e2]
  rfl

/-- The row sums of |A_w| spread over the rows, at (r, j). -/
theorem absSumRow_entry (r : Fin 262144) (j : Fin 128) : val_main_v20 (F := Ideal) x4 (ix2 r j) = Cert.Layer.absRowSum x4 j := by
  rw [val_main_v20_apply, val_main_v19_apply]
  have e0 : idx_main_v19 (idx_main_v20 (ix2 r j)) = ix1 j := funext fun a => Fin.ext (by match a with | ⟨0, _⟩ => rfl)
  rw [e0, val_main_v6_apply]
  unfold Cert.Layer.absRowSum
  refine congrArg₂ (· + ·) rfl (Finset.sum_congr rfl fun k _ => ?_)
  have e : idx_main_v6 (ix1 j) k = ix2 j k := funext fun a => Fin.ext (by match a with | ⟨0, _⟩ => rfl | ⟨1, _⟩ => rfl)
  rw [e]
  rfl

/-- THE REFERENCE'S RESULT is the plain layer's array. -/
theorem result_eq : val_main_v23 (F := Ideal) x0 x1 x2 x3 x4 x5 = Cert.Layer.plainArr x0 x1 x2 x3 x4 x5 := by
  funext i
  obtain ⟨r, j, rfl⟩ : ∃ (r : Fin 262144) (j : Fin 128), i = ix2 r j := ⟨i 0, i 1, eq_ix2 i⟩
  rw [val_main_v23_apply, val_main_v4_apply, firstProduct_entry, bias_entry, val_main_v22_apply, val_main_v18_apply,
    val_main_v17_apply, val_main_v16_apply, val_main_cst_0_apply, val_main_v15_apply, secondProduct_entry, divisorRow_entry,
    val_main_v21_apply, absSumRow_entry]
  rfl

end Cert.ReferenceIdeal.Plain

end
-- ==== Proof.Finite.lean ====
/-
  The precondition read back: when the printed test "every |entry| of every argument is below +inf" is all ones, every entry of
  each of the six arguments is a real number.  The test is a conjunction of six all-reductions; each all-reduction that is 1 had a 1
  at every index; and an extended real whose absolute value is strictly below +inf is neither infinity.
-/
import proofs.«101402_j584115552274_1_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic

variable [Facts]
open Facts

instance : Subsingleton S_.Idx := ⟨fun _ _ => funext fun d => d.elim0⟩

/-- The word 0x7F800000 denotes +inf. -/
theorem inf_word : Ideal.ofBits .f32 0x7F800000#32 = ⊤ := by
  unfold Ideal.ofBits Ideal.ieee
  dsimp only
  rw [if_pos (by decide), if_pos (by decide), if_neg (by decide)]

/-- An extended real whose absolute value compares below +inf is a real number. -/
theorem real_of_abs_lt_inf (x : EReal) (h : Ideal.cmp .olt (max x (-x)) (Ideal.ofBits .f32 0x7F800000#32) = 1#1) : ∃ v : ℝ, x = v := by
  rw [inf_word] at h
  induction x using EReal.rec with
  | bot => exact absurd h (by simp [Ideal.cmp])
  | coe r => exact ⟨r, rfl⟩
  | top => exact absurd h (by simp [Ideal.cmp])

/-- One all-reduction of "|a| below +inf" that is 1: every entry of a is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf (F := Ideal) .olt (Host.absf a) (broadcastInDim s ![] hb (constant (F := Ideal) S_ .f32 0x7F800000#32)))
          (constantI S_ 1 1#1) hr hu ValueIdx.ix0 = 1#1)
    (i : s.Idx) : ∃ v : ℝ, a i = v :=
  real_of_abs_lt_inf (a i) (Host.reduce_andi_all _ _ hr hu _ e i)

/-- THE PRECONDITION, READ BACK: all six arguments hold real numbers. -/
theorem reals_of_pre (x0 x1 : FVec Ideal S262144x128 .f32) (x2 : FVec Ideal S128x128 .f32) (x3 : FVec Ideal S128 .f32)
    (x4 : FVec Ideal S128x128 .f32) (x5 : FVec Ideal S128 .f32) (h : fn (F := Ideal) x0 x1 x2 x3 x4 x5 = fun _ => 1#1) :
    (∀ i, ∃ v : ℝ, x0 i = v) ∧ (∀ i, ∃ v : ℝ, x1 i = v) ∧ (∀ i, ∃ v : ℝ, x2 i = v) ∧ (∀ i, ∃ v : ℝ, x3 i = v)
      ∧ (∀ i, ∃ v : ℝ, x4 i = v) ∧ (∀ i, ∃ v : ℝ, x5 i = v) := by
  have h0 := congrFun h ValueIdx.ix0
  dsimp only [fn, fn_part1, andi] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨real_of_all x0 _ _ _ e0, real_of_all x1 _ _ _ e1, real_of_all x2 _ _ _ e2, real_of_all x3 _ _ _ e3,
    real_of_all x4 _ _ _ e4, real_of_all x5 _ _ _ e5⟩

end Cert.Pre_finite_inputs.Decode

end
-- ==== Proof.lean ====
/-
  A fused dense layer against its plain form, over the extended reals.

  Arguments: x, z : [262144, 128];  U_w, A_w : [128, 128];  U_b, d : [128].  Write e = exp d, s_j = Σ_k |A_w (j, k)| and μ for the
  float word of 0.05.  The plain program computes, at row r and column j,

      ( Σ_k x(r,k)·U_w(j,k) + U_b j )  +  ( ( μ·z(r,j) + (Σ_k (z(r,k)·e_k)·A_w(j,k)) / e_j ) − z(r,j)·s_j ) .

  The fused program first forms, on the host, the matrices M = U_wᵀ and N(k,j) = (e_k·A_w(j,k)) / e_j and the rows U_b and μ − s, and
  then, 2048 rows at a time over 128 grid points, computes ( x·M + z·N + U_b ) + z·(μ − s) for those rows.  Each grid point reads
  and writes its own block of rows, so the 128 written blocks are the 128 row blocks of one array, entry (r, j) of which is

      ( Σ_k x(r,k)·U_w(j,k)  +  Σ_k z(r,k)·((e_k·A_w(j,k)) / e_j)  +  U_b j )  +  z(r,j)·(μ − s_j) .

  The two entries are the same number when every argument entry is a real: exp d_j is then a nonzero real, the quotient by it is a
  product with its reciprocal and comes out of the sum, and z(r,j) distributes over μ − s_j.  Neither step survives an infinity, and
  this is where the precondition — every argument entry finite — is used.  Changes of float format (the rounding of the blocks
  and of M and N to bf16 before the products) are the identity on extended reals, and a matrix product into a zero accumulator is
  the plain contraction, so nothing else separates the two programs.

  The three frames: the two kernels' are their generated frame theorems; the plain program has no kernel, and its frame is its
  run with the result dropped.  The idealized kernel is the kernel's own text (no rewrite was made), so that conjunct is `True`.
-/
import proofs.«101402_j584115552274_1_alg».proof.Defs
import proofs.«101402_j584115552274_1_alg».proof.Proof.Gen.Kernel
import proofs.«101402_j584115552274_1_alg».proof.Proof.Gen.Kernel.Frame
import proofs.«101402_j584115552274_1_alg».proof.Proof.Gen.KernelIdeal
import proofs.«101402_j584115552274_1_alg».proof.Proof.Gen.KernelIdeal.Frame
import proofs.«101402_j584115552274_1_alg».proof.Proof.Gen.KernelIdeal.Value
import proofs.«101402_j584115552274_1_alg».proof.Proof.Gen.ReferenceIdeal
import proofs.«101402_j584115552274_1_alg».proof.Proof.Gen.ReferenceIdeal.Run
import proofs.«101402_j584115552274_1_alg».proof.Proof.Gen.ReferenceIdeal.Read
import proofs.«101402_j584115552274_1_alg».proof.Proof.Gen.Pre_finite_inputs
import proofs.«101402_j584115552274_1_alg».proof.Proof.Entries
import proofs.«101402_j584115552274_1_alg».proof.Proof.KernelValue
import proofs.«101402_j584115552274_1_alg».proof.Proof.RefValue
import proofs.«101402_j584115552274_1_alg».proof.Proof.Finite

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the plain layer's array of the arguments: the fused program's result array is the fused layer's array,
    equal to the plain one because the precondition makes every argument entry a real; the plain program's result is the plain
    layer's array outright, and the two memories agree on the arguments. -/
theorem algebraic : Cert.algebraic_KernelIdeal_ReferenceIdeal := by
  intro m ρ m' ρ' hpre hagree
  refine ⟨fun c => Cert.Layer.plainArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Whole.run m ρ)
    obtain ⟨h0, h1, h2, h3, h4, h5⟩ := Cert.Pre_finite_inputs.Decode.reals_of_pre _ _ _ _ _ _ (hpre c)
    exact Cert.Layer.fusedArr_eq_plainArr _ _ _ _ _ _ h0 h1 h2 h3 h4 h5
  · refine (θ_run Cert.ReferenceIdeal.defs _ _).mono (fun _ h c => ⟨?_, (h c).2⟩) (Cert.ReferenceIdeal.Value.run (F := Ideal) m' ρ')
    rw [(h c).1, Cert.ReferenceIdeal.Read.val_main_v23_eq, Cert.ReferenceIdeal.Plain.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
